-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x128x128 : Shape := ⟨4, ![64, 3, 128, 128]⟩
abbrev S64x16x3x128x128 : Shape := ⟨5, ![64, 16, 3, 128, 128]⟩
abbrev S_ : Shape := ⟨0, ![]⟩

class Facts : Prop where
  bcast_S_S64x3x128x128 : S_.BroadcastsInDim S64x3x128x128 (![] : Fin 0 → Fin S64x3x128x128.rank)
  reducesTo_S64x3x128x128_S_d0_1_2_3 : S64x3x128x128.ReducesTo [0, 1, 2, 3] S_
  h_S_ : 0 < S_.numel
  bcast_S_S64x16x3x128x128 : S_.BroadcastsInDim S64x16x3x128x128 (![] : Fin 0 → Fin S64x16x3x128x128.rank)
  reducesTo_S64x16x3x128x128_S_d0_1_2_3_4 : S64x16x3x128x128.ReducesTo [0, 1, 2, 3, 4] S_

variable [Facts]

def fn {F : FTy → Type} [FloatOps F] (main_arg0 : FVec F S64x3x128x128 .f32) (main_arg1 : FVec F S64x16x3x128x128 .f32) : IVec S_ 1 :=
  let main_v0 : FVec F S64x3x128x128 .f32 := Host.absf main_arg0
  let main_cst : FVec F S_ .f32 := constant S_ .f32 0x7F800000#32
  let main_v1 : FVec F S64x3x128x128 .f32 := broadcastInDim S64x3x128x128 ![] bcast_S_S64x3x128x128 main_cst
  let main_v2 : IVec S64x3x128x128 1 := cmpf .olt main_v0 main_v1
  let main_c : IVec S_ 1 := constantI S_ 1 1#1
  let main_v3 : IVec S_ 1 := (fun x v => Host.reduce IntOp.andi x v reducesTo_S64x3x128x128_S_d0_1_2_3 h_S_) main_v2 main_c
  let main_v4 : FVec F S64x16x3x128x128 .f32 := Host.absf main_arg1
  let main_cst_0 : FVec F S_ .f32 := constant S_ .f32 0x7F800000#32
  let main_v5 : FVec F S64x16x3x128x128 .f32 := broadcastInDim S64x16x3x128x128 ![] bcast_S_S64x16x3x128x128 main_cst_0
  let main_v6 : IVec S64x16x3x128x128 1 := cmpf .olt main_v4 main_v5
  let main_c_1 : IVec S_ 1 := constantI S_ 1 1#1
  let main_v7 : IVec S_ 1 := (fun x v => Host.reduce IntOp.andi x v reducesTo_S64x16x3x128x128_S_d0_1_2_3_4 h_S_) main_v6 main_c_1
  let main_v8 : IVec S_ 1 := andi main_v3 main_v7
  main_v8
-- ==== Kernel.lean ====
abbrev S64x3x128x128 : Shape := ⟨4, ![64, 3, 128, 128]⟩
abbrev S64x16x3x128x128 : Shape := ⟨5, ![64, 16, 3, 128, 128]⟩
abbrev S64x1 : Shape := ⟨2, ![64, 1]⟩
abbrev S8x8x3x128x128 : Shape := ⟨5, ![8, 8, 3, 128, 128]⟩
abbrev S8x3x128x128 : Shape := ⟨4, ![8, 3, 128, 128]⟩
abbrev S8x1 : Shape := ⟨2, ![8, 1]⟩
abbrev S8x8 : Shape := ⟨2, ![8, 8]⟩
abbrev S8x8x1x128x128 : Shape := ⟨5, ![8, 8, 1, 128, 128]⟩
abbrev S8x8x128x128 : Shape := ⟨4, ![8, 8, 128, 128]⟩
abbrev S8x1x128x128 : Shape := ⟨4, ![8, 1, 128, 128]⟩
abbrev S8x128x128 : Shape := ⟨3, ![8, 128, 128]⟩
abbrev S8x8x128 : Shape := ⟨3, ![8, 8, 128]⟩
abbrev S8 : Shape := ⟨1, ![8]⟩
abbrev S_ : Shape := ⟨0, ![]⟩

abbrev nBuf : Space → Nat
  | .hbm => 5
  | .vmem => 7
  | .smem => 0
  | _ => 0

abbrev bufTy : (tb : Table) → Fin (tcTables nBuf tb) → BufTy
  | .hbm, ⟨0, _⟩ => ⟨S64x3x128x128, .f32⟩
  | .hbm, ⟨1, _⟩ => ⟨S64x16x3x128x128, .f32⟩
  | .hbm, ⟨2, _⟩ => ⟨S64x1, .f32⟩
  | .hbm, ⟨3, _⟩ => ⟨S_, .f32⟩
  | .hbm, ⟨4, _⟩ => ⟨S_, .f32⟩
  | .local _ .vmem, ⟨0, _⟩ => ⟨S8x8x3x128x128, .f32⟩
  | .local _ .vmem, ⟨1, _⟩ => ⟨S8x8x3x128x128, .f32⟩
  | .local _ .vmem, ⟨2, _⟩ => ⟨S8x3x128x128, .f32⟩
  | .local _ .vmem, ⟨3, _⟩ => ⟨S8x3x128x128, .f32⟩
  | .local _ .vmem, ⟨4, _⟩ => ⟨S8x1, .f32⟩
  | .local _ .vmem, ⟨5, _⟩ => ⟨S8x1, .f32⟩
  | .local _ .vmem, ⟨6, _⟩ => ⟨S8x1, .f32⟩
  | _, _ => ⟨S64x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v44 : BitVec 1 := Scalar.cmpi .eq arg1 c1_i32
  let v45 : BitVec 32 := Scalar.extui v44
  let c0_i32_36 : BitVec 32 := 0#32
  let v46 : BitVec 1 := Scalar.cmpi .ne v45 c0_i32_36
  v46

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x8x3x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x8x3x128x128_S8x8x1x128x128_0_0_0_0_0 : ∀ a, (![0, 0, 0, 0, 0] : Fin 5 → Nat) a + S8x8x1x128x128.size a ≤ S8x8x3x128x128.size a
  h_S8x8x1x128x128 : 0 < S8x8x1x128x128.numel
  shapeCasts_S8x8x1x128x128_S8x8x128x128 : S8x8x1x128x128.ShapeCasts S8x8x128x128
  inb_S8x3x128x128_S8x1x128x128_0_0_0_0 : ∀ a, (![0, 0, 0, 0] : Fin 4 → Nat) a + S8x1x128x128.size a ≤ S8x3x128x128.size a
  h_S8x1x128x128 : 0 < S8x1x128x128.numel
  shapeCasts_S8x1x128x128_S8x128x128 : S8x1x128x128.ShapeCasts S8x128x128
  shapeCasts_S8x128x128_S8x1x128x128 : S8x128x128.ShapeCasts S8x1x128x128
  broadcasts_S8x1x128x128_S8x8x128x128 : S8x1x128x128.Broadcasts S8x8x128x128
  reduces_S8x8x128x128_S8x8x128 : S8x8x128x128.Reduces [3] S8x8x128
  reduces_S8x8x128_S8x8 : S8x8x128.Reduces [2] S8x8
  inb_S8x8x3x128x128_S8x8x1x128x128_0_0_1_0_0 : ∀ a, (![0, 0, 1, 0, 0] : Fin 5 → Nat) a + S8x8x1x128x128.size a ≤ S8x8x3x128x128.size a
  inb_S8x3x128x128_S8x1x128x128_0_1_0_0 : ∀ a, (![0, 1, 0, 0] : Fin 4 → Nat) a + S8x1x128x128.size a ≤ S8x3x128x128.size a
  inb_S8x8x3x128x128_S8x8x1x128x128_0_0_2_0_0 : ∀ a, (![0, 0, 2, 0, 0] : Fin 5 → Nat) a + S8x8x1x128x128.size a ≤ S8x8x3x128x128.size a
  inb_S8x3x128x128_S8x1x128x128_0_2_0_0 : ∀ a, (![0, 2, 0, 0] : Fin 4 → Nat) a + S8x1x128x128.size a ≤ S8x3x128x128.size a
  reduces_S8x8_S8 : S8x8.Reduces [1] S8
  shapeCasts_S8_S8x1 : S8.ShapeCasts S8x1
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x3x128x128.size a ≤ S64x16x3x128x128.size a
  hwx0_0 : ∀ i : grid0.Coords, EltTy.bits .f32 = 32 ∨ (Rect.block (s := S64x16x3x128x128) S8x8x3x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x128x128.size a ≤ S64x3x128x128.size a
  hwx0_1 : ∀ i : grid0.Coords, EltTy.bits .f32 = 32 ∨ (Rect.block (s := S64x3x128x128) S8x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

abbrev win0_0 : Pipeline.Window sig grid0 :=
  Pipeline.Window.ofSpec (Memref.whole main_arg1) S8x8x3x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x3x128x128 : Shape := ⟨4, ![64, 3, 128, 128]⟩
abbrev S64x16x3x128x128 : Shape := ⟨5, ![64, 16, 3, 128, 128]⟩
abbrev S64x1x3x128x128 : Shape := ⟨5, ![64, 1, 3, 128, 128]⟩
abbrev S_ : Shape := ⟨0, ![]⟩
abbrev S64x16 : Shape := ⟨2, ![64, 16]⟩
abbrev S64 : Shape := ⟨1, ![64]⟩

abbrev nBuf : Space → Nat
  | .hbm => 12
  | .vmem => 0
  | .smem => 0
  | _ => 0

abbrev bufTy : (tb : Table) → Fin (tcTables nBuf tb) → BufTy
  | .hbm, ⟨0, _⟩ => ⟨S64x3x128x128, .f32⟩
  | .hbm, ⟨1, _⟩ => ⟨S64x16x3x128x128, .f32⟩
  | .hbm, ⟨2, _⟩ => ⟨S64x1x3x128x128, .f32⟩
  | .hbm, ⟨3, _⟩ => ⟨S64x16x3x128x128, .f32⟩
  | .hbm, ⟨4, _⟩ => ⟨S64x16x3x128x128, .f32⟩
  | .hbm, ⟨5, _⟩ => ⟨S64x16x3x128x128, .f32⟩
  | .hbm, ⟨6, _⟩ => ⟨S_, .f32⟩
  | .hbm, ⟨7, _⟩ => ⟨S64x16, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S_, .f32⟩
  | _, _ => ⟨S64x3x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S64x3x128x128_S64x1x3x128x128_0_2_3_4 : S64x3x128x128.BroadcastsInDim S64x1x3x128x128 (![0, 2, 3, 4] : Fin 4 → Fin S64x1x3x128x128.rank)
  bcast_S64x1x3x128x128_S64x16x3x128x128_0_1_2_3_4 : S64x1x3x128x128.BroadcastsInDim S64x16x3x128x128 (![0, 1, 2, 3, 4] : Fin 5 → Fin S64x16x3x128x128.rank)
  reducesTo_S64x16x3x128x128_S64x16_d2_3_4 : S64x16x3x128x128.ReducesTo [2, 3, 4] S64x16
  h_S_ : 0 < S_.numel
  reducesTo_S64x16_S64_d1 : S64x16.ReducesTo [1] S64
  reducesTo_S64_S_d0 : S64.ReducesTo [0] S_

variable [Facts₀]

class Facts : Prop extends Facts₀ where

variable [Facts]
-- ==== Proof.LibMinReduce.lean ====
/-
  A minimum taken along one axis of an array of extended reals, read at an index: the fold of `min`, from the
  starting value, over that axis's coordinates: the indices that drop to a given result index are exactly that
  index with each coordinate of the reduced axis inserted, and `min` commutes and associates, so the order of the
  fold does not matter.
-/
import Idealize.ShloMosaic.PureOps.Ideal.Laws

namespace Idealize.ShloMosaic.Ideal

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Idealize.ShloMosaic.Ideal
-- ==== Proof.Tile.lean ====
/-
  One grid point's arithmetic. A point holds an 8 × 8 tile of (batch row, sample) pairs. For one colour channel the
  tile's entry at (row p, sample q) is the sum, over the 128 × 128 image positions, of the squared difference between
  the sample's pixel and the input's pixel. The three channels are added to zero in turn, the minimum along the
  sample axis is taken from +∞, and that is combined by `min` with what the running-minimum buffer held.
  Here each of these is given a name, the values the kernel body stores are shown to be exactly these named functions,
  and each named function is read at an index over the extended reals.
-/
import proofs.«133429_j75711683493951_2_alg».proof.Proof.Gen.KernelIdeal.Skeleton
import proofs.«133429_j75711683493951_2_alg».proof.Proof.LibMinReduce
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

section AnyValues

variable {F : FTy → Type} [FloatOps F]

/-- One channel's share of the tile: at (row, sample), the sum over the image of the squared differences between the
    sample chunk `a` and the input chunk `b` (the input has no sample axis: it is repeated along it). The inner sum
    runs along an image row, the outer over the rows. -/
def chan (a : Vec F S8x8x1x128x128 .f32) (b : Vec F S8x1x128x128 .f32) : FVec F S8x8 .f32 :=
  multiReduction .add [2] S8x8
    (multiReduction .add [3] S8x8x128
      (mulf
        (subf (shapeCast S8x8x128x128 a shapeCasts_S8x8x1x128x128_S8x8x128x128)
          (broadcastTo S8x8x128x128 (shapeCast S8x1x128x128 (shapeCast S8x128x128 b shapeCasts_S8x1x128x128_S8x128x128) shapeCasts_S8x128x128_S8x1x128x128) broadcasts_S8x1x128x128_S8x8x128x128))
        (subf (shapeCast S8x8x128x128 a shapeCasts_S8x8x1x128x128_S8x8x128x128)
          (broadcastTo S8x8x128x128 (shapeCast S8x1x128x128 (shapeCast S8x128x128 b shapeCasts_S8x1x128x128_S8x128x128) shapeCasts_S8x128x128_S8x1x128x128) broadcasts_S8x1x128x128_S8x8x128x128)))
      0x00000000#32 reduces_S8x8x128x128_S8x8x128 (.inl rfl) rfl)
    0x00000000#32 reduces_S8x8x128_S8x8 (.inl rfl) rfl

/-- The tile's minimum along the sample axis, from +∞, combined with what the running-minimum buffer held. -/
def rowMin (acc : FVec F S8x8 .f32) (prev : Vec F S8x1 .f32) : FVec F S8x1 .f32 :=
  minimumf prev (shapeCast S8x1 (multiReduction .minimumf [1] S8 acc 0x7F800000#32 reduces_S8x8_S8 (.inl rfl) rfl) shapeCasts_S8_S8x1)

/-- The first two channels added to zero. -/
theorem pay3_eq (v4 : Vec F S8x8x1x128x128 .f32) (v6 : Vec F S8x1x128x128 .f32) (v15 : Vec F S8x8x1x128x128 .f32) (v17 : Vec F S8x1x128x128 .f32) :
    k0_pay3 v4 v6 v15 v17 = addf (addf (broadcast S8x8 (Scalar.ofBits .f32 0x00000000#32)) (chan v4 v6)) (chan v15 v17) := rfl

/-- The third channel added, then the minimum along the sample axis and with the buffer. -/
theorem pay1_eq (v25 : FVec F S8x8 .f32) (v26 : Vec F S8x8x1x128x128 .f32) (v28 : Vec F S8x1x128x128 .f32) (v39 : Vec F S8x1 .f32) :
    k0_pay1 v25 v26 v28 v39 = shapeCast S8x1 (rowMin (addf v25 (chan v26 v28)) v39) shapeCasts_S8x1_S8x1 := rfl

/-- The buffer's starting value: +∞ in every row. -/
theorem pay2_eq : k0_pay2 (F := F) = shapeCast S8x1 (broadcast S8x1 (Scalar.ofBits .f32 0x7F800000#32)) shapeCasts_S8x1_S8x1 := rfl

end AnyValues

/-! ## Over the extended reals, at an index -/

/-- A channel's share at (row p, sample q): the double sum over the image of the squared differences. -/
theorem chan_apply (a : Vec Ideal S8x8x1x128x128 .f32) (b : Vec Ideal S8x1x128x128 .f32) (p q : Fin 8) :
    chan a b (ix2 p q)
      = ∑ h : Fin 128, ∑ w : Fin 128, (a (ix5 p q (0 : Fin 1) h w) - b (ix4 p (0 : Fin 1) h w)) * (a (ix5 p q (0 : Fin 1) h w) - b (ix4 p (0 : Fin 1) h w)) := by
  unfold chan
  refine (Ideal.multiReduction_add_single _ 0x00000000#32 reduces_S8x8x128_S8x8 (.inl rfl) rfl (ix2 p q)).trans ?_
  refine Finset.sum_congr rfl fun h _ => ?_
  refine (Ideal.multiReduction_add_single _ 0x00000000#32 reduces_S8x8x128x128_S8x8x128 (.inl rfl) rfl _).trans ?_
  refine Finset.sum_congr rfl fun w _ => ?_
  have ei : (reduces_S8x8x128x128_S8x8x128.lift (reduces_S8x8x128_S8x8.lift (ix2 p q) h) w) = ix4 p q h w :=
    funext fun d => Fin.ext (by match d with | ⟨0, _⟩ => rfl | ⟨1, _⟩ => rfl | ⟨2, _⟩ => rfl | ⟨3, _⟩ => rfl)
  rw [ei]
  have ea : shapeCast S8x8x128x128 a shapeCasts_S8x8x1x128x128_S8x8x128x128 (ix4 p q h w) = a (ix5 p q (0 : Fin 1) h w) :=
    shapeCast_apply a _ _ _ (by
      rw [Shape.rowMajor_val_five, Shape.rowMajor_val_four]
      show ((((p.val * 8 + q.val) * 1 + 0) * 128 + h.val) * 128 + w.val) = ((p.val * 8 + q.val) * 128 + h.val) * 128 + w.val
      omega)
  have eb : broadcastTo S8x8x128x128 (shapeCast S8x1x128x128 (shapeCast S8x128x128 b shapeCasts_S8x1x128x128_S8x128x128) shapeCasts_S8x128x128_S8x1x128x128) broadcasts_S8x1x128x128_S8x8x128x128 (ix4 p q h w)
      = b (ix4 p (0 : Fin 1) h w) := by
    rw [shapeCast_shapeCast]
    exact broadcastTo_apply b _ _ _ (fun d => by match d with | ⟨0, _⟩ => rfl | ⟨1, _⟩ => rfl | ⟨2, _⟩ => rfl | ⟨3, _⟩ => rfl)
  show (shapeCast S8x8x128x128 a _ (ix4 p q h w) - broadcastTo S8x8x128x128 _ _ (ix4 p q h w))
      * (shapeCast S8x8x128x128 a _ (ix4 p q h w) - broadcastTo S8x8x128x128 _ _ (ix4 p q h w)) = _
  rw [ea, eb]

/-- The running minimum at row p: the least of what the buffer held and the fold of `min`, from +∞, over the tile's
    eight samples of that row. -/
theorem rowMin_apply (acc : FVec Ideal S8x8 .f32) (prev : Vec Ideal S8x1 .f32) (p : Fin 8) :
    rowMin acc prev (ix2 p (0 : Fin 1))
      = min (prev (ix2 p (0 : Fin 1)))
          ((Finset.univ : Finset (Fin 8)).fold min (Ideal.ofBits .f32 0x7F800000#32) fun q => acc (ix2 p q)) := by
  unfold rowMin
  show min (prev (ix2 p (0 : Fin 1))) (shapeCast S8x1 _ shapeCasts_S8_S8x1 (ix2 p (0 : Fin 1))) = _
  rw [shapeCast_apply _ shapeCasts_S8_S8x1 (ix2 p (0 : Fin 1)) (ix1 p) (by
    rw [Shape.rowMajor_val_one, Shape.rowMajor_val_two]
    show p.val = p.val * 1 + 0
    omega)]
  refine congrArg (min _) ?_
  refine (Ideal.multiReduction_minimumf_single acc 0x7F800000#32 reduces_S8x8_S8 (.inl rfl) rfl (ix1 p)).trans ?_
  have e : (acc ∘ reduces_S8x8_S8.lift (ix1 p)) = fun q : Fin 8 => acc (ix2 p q) :=
    funext fun q => congrArg acc (funext fun d => Fin.ext (by match d with | ⟨0, _⟩ => rfl | ⟨1, _⟩ => rfl))
  rw [e]
  rfl

/-! ## The whole point: from the two blocks and the buffer to the buffer -/

section AnyValues

variable {F : FTy → Type} [FloatOps F]

/-- What a grid point leaves in the running-minimum buffer, from the point's sample block `x0`, its input block `x1`
    and what the buffer held: each channel's chunk is cut out of the two blocks, the three channels' shares are added
    to zero, and the minimum along the sample axis is combined with the buffer. -/
def step (x0 : Vec F S8x8x3x128x128 .f32) (x1 : Vec F S8x3x128x128 .f32) (prev : Vec F S8x1 .f32) : Vec F S8x1 .f32 :=
  k0_pay1
    (k0_pay3
      (View.ld x0 (Rect.unit ![0, 0, 0, 0, 0] S8x8x1x128x128.size inb_S8x8x3x128x128_S8x8x1x128x128_0_0_0_0_0))
      (View.ld x1 (Rect.unit ![0, 0, 0, 0] S8x1x128x128.size inb_S8x3x128x128_S8x1x128x128_0_0_0_0))
      (View.ld x0 (Rect.unit ![0, 0, 1, 0, 0] S8x8x1x128x128.size inb_S8x8x3x128x128_S8x8x1x128x128_0_0_1_0_0))
      (View.ld x1 (Rect.unit ![0, 1, 0, 0] S8x1x128x128.size inb_S8x3x128x128_S8x1x128x128_0_1_0_0)))
    (View.ld x0 (Rect.unit ![0, 0, 2, 0, 0] S8x8x1x128x128.size inb_S8x8x3x128x128_S8x8x1x128x128_0_0_2_0_0))
    (View.ld x1 (Rect.unit ![0, 2, 0, 0] S8x1x128x128.size inb_S8x3x128x128_S8x1x128x128_0_2_0_0))
    prev

/-- The buffer's starting value. -/
def start : Vec F S8x1 .f32 := k0_pay2 (F := F)

end AnyValues

/-- The squared distance, restricted to channel c, between sample q of row p of a sample block and row p of an input
    block. -/
def blockDist (x0 : Vec Ideal S8x8x3x128x128 .f32) (x1 : Vec Ideal S8x3x128x128 .f32) (c : Fin 3) (p q : Fin 8) : EReal :=
  ∑ h : Fin 128, ∑ w : Fin 128, (x0 (ix5 p q c h w) - x1 (ix4 p c h w)) * (x0 (ix5 p q c h w) - x1 (ix4 p c h w))

/-- A channel's share computed from the chunks cut at channel c is that channel's squared distance. -/
theorem chan_ld (x0 : Vec Ideal S8x8x3x128x128 .f32) (x1 : Vec Ideal S8x3x128x128 .f32) (c : Fin 3)
    (off5 : Fin 5 → Nat) (off4 : Fin 4 → Nat) (h5 : off5 = ![0, 0, c.val, 0, 0]) (h4 : off4 = ![0, c.val, 0, 0])
    (inb5 : ∀ a, off5 a + S8x8x1x128x128.size a ≤ S8x8x3x128x128.size a)
    (inb4 : ∀ a, off4 a + S8x1x128x128.size a ≤ S8x3x128x128.size a) (p q : Fin 8) :
    chan (View.ld x0 (Rect.unit off5 S8x8x1x128x128.size inb5)) (View.ld x1 (Rect.unit off4 S8x1x128x128.size inb4)) (ix2 p q)
      = blockDist x0 x1 c p q := by
  subst h5 h4
  rw [chan_apply]
  unfold blockDist
  refine Finset.sum_congr rfl fun h _ => Finset.sum_congr rfl fun w _ => ?_
  have e5 : View.ld x0 (Rect.unit ![0, 0, c.val, 0, 0] S8x8x1x128x128.size inb5) (ix5 p q (0 : Fin 1) h w) = x0 (ix5 p q c h w) :=
    congrArg x0 (funext fun d => Fin.ext (by
      match d with
      | ⟨0, _⟩ => show 0 + 1 * p.val = p.val; omega
      | ⟨1, _⟩ => show 0 + 1 * q.val = q.val; omega
      | ⟨2, _⟩ => show c.val + 1 * 0 = c.val; omega
      | ⟨3, _⟩ => show 0 + 1 * h.val = h.val; omega
      | ⟨4, _⟩ => show 0 + 1 * w.val = w.val; omega))
  have e4 : View.ld x1 (Rect.unit ![0, c.val, 0, 0] S8x1x128x128.size inb4) (ix4 p (0 : Fin 1) h w) = x1 (ix4 p c h w) :=
    congrArg x1 (funext fun d => Fin.ext (by
      match d with
      | ⟨0, _⟩ => show 0 + 1 * p.val = p.val; omega
      | ⟨1, _⟩ => show c.val + 1 * 0 = c.val; omega
      | ⟨2, _⟩ => show 0 + 1 * h.val = h.val; omega
      | ⟨3, _⟩ => show 0 + 1 * w.val = w.val; omega))
  rw [e5, e4]

/-- The point's result at row p: the least of what the buffer held and, over the tile's eight samples, of the three
    channels' squared distances added to zero in turn. -/
theorem step_apply (x0 : Vec Ideal S8x8x3x128x128 .f32) (x1 : Vec Ideal S8x3x128x128 .f32) (prev : Vec Ideal S8x1 .f32) (p : Fin 8) :
    step x0 x1 prev (ix2 p (0 : Fin 1))
      = min (prev (ix2 p (0 : Fin 1)))
          ((Finset.univ : Finset (Fin 8)).fold min (Ideal.ofBits .f32 0x7F800000#32) fun q =>
            ((Ideal.ofBits .f32 0x00000000#32 + blockDist x0 x1 0 p q) + blockDist x0 x1 1 p q) + blockDist x0 x1 2 p q) := by
  unfold step
  rw [pay1_eq, pay3_eq, shapeCast_self, rowMin_apply]
  refine congrArg (min _) (congrArg (fun f => Finset.fold min (Ideal.ofBits .f32 0x7F800000#32) f Finset.univ) (funext fun q => ?_))
  show ((Ideal.ofBits .f32 0x00000000#32 + chan _ _ (ix2 p q)) + chan _ _ (ix2 p q)) + chan _ _ (ix2 p q) = _
  exact congrArg₂ (· + ·)
    (congrArg₂ (· + ·) (congrArg (Ideal.ofBits .f32 0x00000000#32 + ·) (chan_ld x0 x1 0 _ _ rfl rfl _ _ p q))
      (chan_ld x0 x1 1 _ _ rfl rfl _ _ p q))
    (chan_ld x0 x1 2 _ _ rfl rfl _ _ p q)

/-- The buffer starts at +∞ in every row. -/
theorem start_apply (j : S8x1.Idx) : start (F := Ideal) j = Ideal.ofBits .f32 0x7F800000#32 := by
  unfold start
  rw [pay2_eq, shapeCast_self]
  rfl

end Cert.KernelIdeal.Tile

end
-- ==== Proof.Pieces.lean ====
/-
  What each of the two kinds of grid point leaves behind, as values. At a point that opens a batch tile (the first
  of its two sample tiles) the body resets the running-minimum buffer to +∞ and then folds the tile in; at the point
  that closes it the body folds the tile into what the buffer held and copies the buffer to the output block. In both
  the buffer ends at the one-point step of the tile arithmetic, applied to +∞ or to the buffer's previous contents.
-/
import proofs.«133429_j75711683493951_2_alg».proof.Proof.Gen.KernelIdeal.Frame
import proofs.«133429_j75711683493951_2_alg».proof.Proof.Tile
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Tile

variable {F : FTy → Type} [FloatOps F]

theorem hz : (![0, 0] : Fin 2 → Nat) = fun _ => 0 := funext fun a => by fin_cases a <;> rfl

/-- A closing point leaves the buffer at the step over what it held. -/
theorem buffer_closing (c : Dev nD) (i : grid0.Coords) (arg2 : Memref sig .tc .vmem S8x8x3x128x128 .f32) (harg2 : arg2.IsWhole)
    (arg3 : Memref sig .tc .vmem S8x3x128x128 .f32) (harg3 : arg3.IsWhole) (arg4 : Memref sig .tc .vmem S8x1 .f32) (harg4 : arg4.IsWhole)
    (arg5 : Memref sig .tc .vmem S8x1 .f32) (harg5 : arg5.IsWhole) (hc0 : ¬cond0_0 i) (hc1 : cond0_1 i)
    (x0 : Vec F S8x8x3x128x128 .f32) (x1 : Vec F S8x3x128x128 .f32) (xs0 : Vec F S8x1 .f32) :
    sout0_B_0 c i arg2 harg2 arg3 harg3 arg4 harg4 arg5 harg5 hc0 hc1 x0 x1 xs0 = step x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread, View.ld_unit_zero (S := S8x1) hz]
  rfl

/-- And it writes that same value to the output block. -/
theorem output_closing (c : Dev nD) (i : grid0.Coords) (arg2 : Memref sig .tc .vmem S8x8x3x128x128 .f32) (harg2 : arg2.IsWhole)
    (arg3 : Memref sig .tc .vmem S8x3x128x128 .f32) (harg3 : arg3.IsWhole) (arg4 : Memref sig .tc .vmem S8x1 .f32) (harg4 : arg4.IsWhole)
    (arg5 : Memref sig .tc .vmem S8x1 .f32) (harg5 : arg5.IsWhole) (hc0 : ¬cond0_0 i) (hc1 : cond0_1 i)
    (x0 : Vec F S8x8x3x128x128 .f32) (x1 : Vec F S8x3x128x128 .f32) (xs0 : Vec F S8x1 .f32) :
    out0_B_2 c i arg2 harg2 arg3 harg3 arg4 harg4 arg5 harg5 hc0 hc1 x0 x1 xs0 = step x0 x1 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  sl_unfold_words
  rw [View.canon_unit_zero hz, View.readCov_unit_zero (S := S8x1) _ hz]
  simp only [View.readAt_eq_ld, harg2.read_unread, harg3.read_unread, harg5.read_unread, View.ld_unit_zero (S := S8x1) hz]
  rfl

/-- An opening point leaves the buffer at the step over +∞. -/
theorem buffer_opening (c : Dev nD) (i : grid0.Coords) (arg2 : Memref sig .tc .vmem S8x8x3x128x128 .f32) (harg2 : arg2.IsWhole)
    (arg3 : Memref sig .tc .vmem S8x3x128x128 .f32) (harg3 : arg3.IsWhole) (arg4 : Memref sig .tc .vmem S8x1 .f32) (harg4 : arg4.IsWhole)
    (arg5 : Memref sig .tc .vmem S8x1 .f32) (harg5 : arg5.IsWhole) (hc0 : cond0_0 i) (hc1 : ¬cond0_1 i)
    (x0 : Vec F S8x8x3x128x128 .f32) (x1 : Vec F S8x3x128x128 .f32) :
    sout0_A_0 c i arg2 harg2 arg3 harg3 arg4 harg4 arg5 harg5 hc0 hc1 x0 x1 = step x0 x1 (start (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S8x1) hz, View.readCov_unit_zero (S := S8x1) _ hz]
  simp only [View.readAt_eq_ld, harg2.read_unread, harg3.read_unread, View.ld_unit_zero (S := S8x1) hz]
  rfl

end Cert.KernelIdeal.Pieces

end
-- ==== Proof.MinDist.lean ====
/-
  The mathematics both programs compute. There are 64 batch rows; each has an input image (3 channels of 128 × 128
  pixels) and 16 sample images. The squared distance between a sample and its row's input is the sum over channels and
  pixels of the squared pixel differences. For each row the least of the 16 distances is taken, starting from +∞, and
  the 64 minima are added to zero.
  One program takes the minimum over the 16 samples in one sweep; the other takes it over the first eight, then
  combines with the last eight. A minimum is determined by which numbers lie below it, and a number lies below a
  minimum of a family exactly when it lies below every member: so the two agree, with no condition on the entries.
-/
import Idealize.ShloMosaic.PureOps.Ideal.Laws
import Idealize.ShloMosaic.Lib.ValueIdx

noncomputable section

open Idealize.ShloMosaic Idealize.ShloMosaic.ValueIdx

namespace MinDist

/-- The input images: (row, channel, pixel row, pixel column). -/
abbrev Inputs : Shape := ⟨4, ![64, 3, 128, 128]⟩
/-- The sample images: (row, sample, channel, pixel row, pixel column). -/
abbrev Samples : Shape := ⟨5, ![64, 16, 3, 128, 128]⟩

/-- Channel c's share of the squared distance between sample s of row n and row n's input. -/
def chanDist (x : Inputs.Idx → EReal) (y : Samples.Idx → EReal) (n : Fin 64) (s : Fin 16) (c : Fin 3) : EReal :=
  ∑ h : Fin 128, ∑ w : Fin 128, (y (ix5 n s c h w) - x (ix4 n c h w)) * (y (ix5 n s c h w) - x (ix4 n c h w))

/-- The squared distance between sample s of row n and row n's input. -/
def dist (x : Inputs.Idx → EReal) (y : Samples.Idx → EReal) (n : Fin 64) (s : Fin 16) : EReal :=
  ∑ c : Fin 3, chanDist x y n s c

/-- Row n's least distance over its 16 samples, from +∞. -/
def best (x : Inputs.Idx → EReal) (y : Samples.Idx → EReal) (n : Fin 64) : EReal :=
  (Finset.univ : Finset (Fin 16)).fold min (Ideal.ofBits .f32 0x7F800000#32) fun s => dist x y n s

/-- The sum over the rows of the least distances, from zero. -/
def total (x : Inputs.Idx → EReal) (y : Samples.Idx → EReal) : EReal :=
  Ideal.ofBits .f32 0x00000000#32 + ∑ n : Fin 64, best x y n

/-- Sample q of the first eight. -/
def lo (q : Fin 8) : Fin 16 := ⟨q.val, by omega⟩
/-- Sample q of the last eight. -/
def hi (q : Fin 8) : Fin 16 := ⟨8 + q.val, by omega⟩

/-- The minimum taken in two halves — +∞ combined with the first eight samples' minimum, then with the last eight's,
    each sample's distance accumulated channel by channel from zero — is the minimum over all sixteen. -/
theorem best_split (x : Inputs.Idx → EReal) (y : Samples.Idx → EReal) (n : Fin 64) :
    min (min (Ideal.ofBits .f32 0x7F800000#32)
          ((Finset.univ : Finset (Fin 8)).fold min (Ideal.ofBits .f32 0x7F800000#32) fun q =>
            ((Ideal.ofBits .f32 0x00000000#32 + chanDist x y n (lo q) 0) + chanDist x y n (lo q) 1) + chanDist x y n (lo q) 2))
        ((Finset.univ : Finset (Fin 8)).fold min (Ideal.ofBits .f32 0x7F800000#32) fun q =>
            ((Ideal.ofBits .f32 0x00000000#32 + chanDist x y n (hi q) 0) + chanDist x y n (hi q) 1) + chanDist x y n (hi q) 2)
      = best x y n := by
  have hd : ∀ s, ((Ideal.ofBits .f32 0x00000000#32 + chanDist x y n s 0) + chanDist x y n s 1) + chanDist x y n s 2 = dist x y n s := by
    intro s
    unfold dist
    rw [Fin.sum_univ_three, Ideal.ofBits_zero_f32, zero_add]
  simp only [hd]
  refine eq_of_forall_le_iff fun c => ?_
  unfold best
  simp only [le_min_iff, Finset.le_fold_min, Finset.mem_univ, true_imp_iff]
  constructor
  · rintro ⟨⟨hT, -, hlo⟩, -, hhi⟩
    refine ⟨hT, fun s => ?_⟩
    by_cases hs : s.val < 8
    · have e : lo ⟨s.val, hs⟩ = s := Fin.ext rfl
      exact e ▸ hlo ⟨s.val, hs⟩
    · have e : hi ⟨s.val - 8, by have := s.isLt; omega⟩ = s := Fin.ext (by show 8 + (s.val - 8) = s.val; omega)
      exact e ▸ hhi ⟨s.val - 8, by have := s.isLt; omega⟩
  · rintro ⟨hT, h⟩
    exact ⟨⟨hT, hT, fun q => h (lo q)⟩, hT, fun q => h (hi q)⟩

end MinDist

end
-- ==== Proof.Row.lean ====
/-
  One batch tile, two grid points. The first point sees samples 0–7 of the tile's eight rows, the second samples 8–15;
  both see the same eight input images. If the two sample blocks and the input block are the corresponding parts of the
  whole arrays, then what the second point leaves in row p of the buffer is the least distance of batch row n over all
  sixteen samples.
-/
import proofs.«133429_j75711683493951_2_alg».proof.Proof.Tile
import proofs.«133429_j75711683493951_2_alg».proof.Proof.MinDist

noncomputable section

open Idealize.ShloMosaic Idealize.ShloMosaic.ValueIdx

namespace Cert.KernelIdeal.Row

open Cert.KernelIdeal Cert.KernelIdeal.Tile MinDist

/-- A block's channel distance is the arrays' when the block's entries are the arrays' entries. -/
theorem blockDist_eq (x0 : Vec Ideal S8x8x3x128x128 .f32) (x1 : Vec Ideal S8x3x128x128 .f32)
    (X : Inputs.Idx → EReal) (Y : Samples.Idx → EReal) (n : Fin 64) (s : Fin 16) (p q : Fin 8) (ch : Fin 3)
    (h0 : ∀ (h w : Fin 128), x0 (ix5 p q ch h w) = Y (ix5 n s ch h w))
    (h1 : ∀ (h w : Fin 128), x1 (ix4 p ch h w) = X (ix4 n ch h w)) :
    blockDist x0 x1 ch p q = chanDist X Y n s ch := by
  unfold blockDist chanDist
  refine Finset.sum_congr rfl fun h _ => Finset.sum_congr rfl fun w _ => ?_
  rw [h0, h1]

/-- After the tile's two points, row p of the buffer holds batch row n's least distance. -/
theorem closing_row (a0 : Vec Ideal S8x8x3x128x128 .f32) (a1 : Vec Ideal S8x3x128x128 .f32)
    (b0 : Vec Ideal S8x8x3x128x128 .f32) (b1 : Vec Ideal S8x3x128x128 .f32)
    (X : Inputs.Idx → EReal) (Y : Samples.Idx → EReal) (n : Fin 64) (p : Fin 8)
    (ha0 : ∀ (q : Fin 8) (ch : Fin 3) (h w : Fin 128), a0 (ix5 p q ch h w) = Y (ix5 n (lo q) ch h w))
    (ha1 : ∀ (ch : Fin 3) (h w : Fin 128), a1 (ix4 p ch h w) = X (ix4 n ch h w))
    (hb0 : ∀ (q : Fin 8) (ch : Fin 3) (h w : Fin 128), b0 (ix5 p q ch h w) = Y (ix5 n (hi q) ch h w))
    (hb1 : ∀ (ch : Fin 3) (h w : Fin 128), b1 (ix4 p ch h w) = X (ix4 n ch h w)) :
    step b0 b1 (step a0 a1 (start (F := Ideal))) (ix2 p (0 : Fin 1)) = best X Y n := by
  rw [step_apply, step_apply, start_apply]
  have ea : ∀ (q : Fin 8) (ch : Fin 3), blockDist a0 a1 ch p q = chanDist X Y n (lo q) ch :=
    fun q ch => blockDist_eq a0 a1 X Y n (lo q) p q ch (ha0 q ch) (ha1 ch)
  have eb : ∀ (q : Fin 8) (ch : Fin 3), blockDist b0 b1 ch p q = chanDist X Y n (hi q) ch :=
    fun q ch => blockDist_eq b0 b1 X Y n (hi q) p q ch (hb0 q ch) (hb1 ch)
  simp only [ea, eb]
  exact best_split X Y n

end Cert.KernelIdeal.Row

end
-- ==== Proof.PerRow.lean ====
/-
  From grid points to the per-row array. The grid is 8 batch tiles × 2 sample tiles, visited tile by tile: point t
  works on batch tile t / 2 and sample tile t % 2. The even points open a batch tile, the odd points close it and write
  the buffer back to rows 8·(t / 2) … 8·(t / 2) + 7 of the 64 × 1 output array. A block of the sample array at point
  t is the array at rows 8·(t / 2) + p and samples 8·(t % 2) + q; a block of the input array is the array at rows
  8·(t / 2) + p. So what a closing point writes back is the restriction of ONE function of the two whole arrays — each
  row's least distance over its sixteen samples — and the eight closing points' blocks cover the output array.
-/
import proofs.«133429_j75711683493951_2_alg».proof.Proof.Gen.KernelIdeal.Frame
import proofs.«133429_j75711683493951_2_alg».proof.Proof.Pieces
import proofs.«133429_j75711683493951_2_alg».proof.Proof.Row
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.PerRow

open Cert.KernelIdeal Cert.KernelIdeal.Gen Cert.KernelIdeal.Tile Cert.KernelIdeal.Pieces Cert.KernelIdeal.Row MinDist

variable (m : (ℓ : Loc nD τ sig) → Buf (Elt Ideal) ℓ)

/-- Which block each window is on at point t: the batch tile is t / 2, the sample tile t % 2. -/
theorem idx_facts : ∀ t : Fin cfg0.N,
    win0_0.index t (0 : Fin 5) = t.val / 2 ∧ win0_0.index t (1 : Fin 5) = t.val % 2 ∧ win0_0.index t (2 : Fin 5) = 0
    ∧ win0_0.index t (3 : Fin 5) = 0 ∧ win0_0.index t (4 : Fin 5) = 0
    ∧ win0_1.index t (0 : Fin 4) = t.val / 2 ∧ win0_1.index t (1 : Fin 4) = 0 ∧ win0_1.index t (2 : Fin 4) = 0
    ∧ win0_1.index t (3 : Fin 4) = 0
    ∧ win0_2.index t (0 : Fin 2) = t.val / 2 ∧ win0_2.index t (1 : Fin 2) = 0 :=
  (by decide +kernel : ∀ t : Fin grid0.N, _)

/-- The point before. -/
def before (t : Fin cfg0.N) : Fin cfg0.N := ⟨t.val - 1, Nat.lt_of_le_of_lt (Nat.sub_le _ _) t.isLt⟩

/-- An opening point leaves the buffer at the step of its blocks over +∞. -/
theorem buffer_at_opening (c : Dev nD) (t : Fin cfg0.N) (h0 : t.val % 2 = 0) :
    (outsAt0 m c t.val t.isLt).2 = step (iblk m c 0 t) (iblk m c 1 t) (start (F := Ideal)) := by
  have h1 : ¬t.val % 2 = 1 := by omega
  rw [outsAt0_A m c t h0 h1]
  exact buffer_opening c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- A closing point writes to the output block the step of its blocks over what the opening point left. -/
theorem output_at_closing (c : Dev nD) (t : Fin cfg0.N) (h1 : t.val % 2 = 1) :
    (outsAt0 m c t.val t.isLt).1
      = step (iblk m c 0 t) (iblk m c 1 t) (step (iblk m c 0 (before t)) (iblk m c 1 (before t)) (start (F := Ideal))) := by
  have h0 : ¬t.val % 2 = 0 := by omega
  rw [outsAt0_B m c t h0 h1]
  refine (output_closing c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  refine congrArg (step (iblk m c 0 t) (iblk m c 1 t)) ?_
  exact buffer_at_opening m c (before t) (by show (t.val - 1) % 2 = 0; omega)

/-- A block of the sample array at point t: the array at row 8·(t / 2) + p, sample 8·(t % 2) + q. -/
theorem samples_blk (c : Dev nD) (t : Fin cfg0.N) (p q : Fin 8) (ch : Fin 3) (h w : Fin 128) (n : Fin 64) (s : Fin 16)
    (hn : n.val = 8 * (t.val / 2) + p.val) (hs : s.val = 8 * (t.val % 2) + q.val) :
    iblk m c 0 t (ix5 p q ch h w) = V m c main_arg1 (ix5 n s ch h w) := by
  obtain ⟨e0, e1, e2, e3, e4, -⟩ := idx_facts t
  unfold iblk
  rw [View.read_apply]
  show V m c main_arg1 _ = V m c main_arg1 _
  refine congrArg (V m c main_arg1) (funext fun a => Fin.ext ?_)
  match a with
  | ⟨0, _⟩ => show win0_0.index t (0 : Fin 5) * 8 + 1 * p.val = n.val; rw [e0, hn]; omega
  | ⟨1, _⟩ => show win0_0.index t (1 : Fin 5) * 8 + 1 * q.val = s.val; rw [e1, hs]; omega
  | ⟨2, _⟩ => show win0_0.index t (2 : Fin 5) * 3 + 1 * ch.val = ch.val; rw [e2]; omega
  | ⟨3, _⟩ => show win0_0.index t (3 : Fin 5) * 128 + 1 * h.val = h.val; rw [e3]; omega
  | ⟨4, _⟩ => show win0_0.index t (4 : Fin 5) * 128 + 1 * w.val = w.val; rw [e4]; omega

/-- A block of the input array at point t: the array at row 8·(t / 2) + p. -/
theorem inputs_blk (c : Dev nD) (t : Fin cfg0.N) (p : Fin 8) (ch : Fin 3) (h w : Fin 128) (n : Fin 64)
    (hn : n.val = 8 * (t.val / 2) + p.val) :
    iblk m c 1 t (ix4 p ch h w) = V m c main_arg0 (ix4 n ch h w) := by
  obtain ⟨-, -, -, -, -, e0, e1, e2, e3, -⟩ := idx_facts t
  unfold iblk
  rw [View.read_apply]
  show V m c main_arg0 _ = V m c main_arg0 _
  refine congrArg (V m c main_arg0) (funext fun a => Fin.ext ?_)
  match a with
  | ⟨0, _⟩ => show win0_1.index t (0 : Fin 4) * 8 + 1 * p.val = n.val; rw [e0, hn]; omega
  | ⟨1, _⟩ => show win0_1.index t (1 : Fin 4) * 3 + 1 * ch.val = ch.val; rw [e1]; omega
  | ⟨2, _⟩ => show win0_1.index t (2 : Fin 4) * 128 + 1 * h.val = h.val; rw [e2]; omega
  | ⟨3, _⟩ => show win0_1.index t (3 : Fin 4) * 128 + 1 * w.val = w.val; rw [e3]; omega

/-- Each batch row's least distance over its sixteen samples, as contents of the 64 × 1 output array. -/
def perRow (c : Dev nD) : Buf (Elt Ideal) ((c : Thread nD τ).loc main_v0) :=
  fun i => best (V m c main_arg0) (V m c main_arg1) ⟨(i 0).val, (i 0).isLt⟩

/-- What a closing point's output block holds at row p: batch row 8·(t / 2) + p's least distance. -/
theorem closing_value (c : Dev nD) (t : Fin cfg0.N) (h1 : t.val % 2 = 1) (p : Fin 8) (n : Fin 64)
    (hn : n.val = 8 * (t.val / 2) + p.val) :
    (outsAt0 m c t.val t.isLt).1 (ix2 p (0 : Fin 1)) = best (V m c main_arg0) (V m c main_arg1) n := by
  rw [output_at_closing m c t h1]
  have hb : (before t).val = t.val - 1 := rfl
  exact closing_row (iblk m c 0 (before t)) (iblk m c 1 (before t)) (iblk m c 0 t) (iblk m c 1 t)
    (V m c main_arg0) (V m c main_arg1) n p
    (fun q ch h w => samples_blk m c (before t) p q ch h w n (lo q) (by rw [hn, hb]; omega) (by show q.val = 8 * ((before t).val % 2) + q.val; rw [hb]; omega))
    (fun ch h w => inputs_blk m c (before t) p ch h w n (by rw [hn, hb]; omega))
    (fun q ch h w => samples_blk m c t p q ch h w n (hi q) hn (by show 8 + q.val = 8 * (t.val % 2) + q.val; omega))
    (fun ch h w => inputs_blk m c t p ch h w n hn)

/-- What a closing point writes back is its block of the per-row array. -/
theorem flushed_eq (c : Dev nD) (t : Fin cfg0.N) (hf : (cfg0.win 2).flush t = true) :
    (dats m 0 c).flushed 2 t = ((cfg0.win 2).blk t).view.read (Elt Ideal) (perRow m c) := by
  have h1 : t.val % 2 = 1 := (flush0_2 t).mp hf
  have hN : t.val < 16 := lt_of_lt_of_eq t.isLt (show cfg0.N = 16 from N_0)
  obtain ⟨-, -, -, -, -, -, -, -, -, e0, e1⟩ := idx_facts t
  show (cfg0.win 2).cut (grid0.coords t) ((dats m 0 c).after 2 t) = _
  rw [after0_2]
  funext j
  obtain ⟨p, z, rfl⟩ : ∃ (p : Fin 8) (z : Fin 1), j = ix2 p z := ⟨j 0, j 1, eq_ix2 j⟩
  obtain rfl : z = 0 := Subsingleton.elim _ _
  show (outsAt0 m c t.val t.isLt).1 (ix2 p (0 : Fin 1)) = perRow m c (((cfg0.win 2).blk t).view.emb (ix2 p (0 : Fin 1)))
  rw [closing_value m c t h1 p ⟨8 * (t.val / 2) + p.val, by have := p.isLt; omega⟩ rfl]
  unfold perRow
  refine congrArg (best (V m c main_arg0) (V m c main_arg1)) (Fin.ext ?_)
  show 8 * (t.val / 2) + p.val = win0_2.index t (0 : Fin 2) * 8 + 1 * p.val
  rw [e0]; omega

/-- An index of the output array is in point t's block iff each coordinate is in the block's range on its axis. -/
theorem mem_blk (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- After the run the output array holds each row's least distance: row r is written by the point closing batch tile
    r / 8. -/
theorem final (c : Dev nD) : (dats m 0 c).arrAt 2 cfg0.N = perRow m c :=
  (dats m 0 c).arrAt_eq_of_cover 2 (perRow m c) (flushed_eq m c) fun i => by
    have hi0 : (i 0).val < 64 := (i 0).isLt
    have hi1 : (i 1).val < 1 := (i 1).isLt
    have hN : cfg0.N = 16 := N_0
    let t : Fin cfg0.N := ⟨2 * ((i 0).val / 8) + 1, by rw [hN]; omega⟩
    have ht : t.val = 2 * ((i 0).val / 8) + 1 := rfl
    obtain ⟨-, -, -, -, -, -, -, -, -, e0, e1⟩ := idx_facts t
    refine ⟨t, (flush0_2 t).mpr (by rw [ht]; omega), ?_⟩
    rw [mem_blk]
    intro a
    match a with
    | ⟨0, _⟩ => show win0_2.index t (0 : Fin 2) * 8 ≤ (i 0).val ∧ (i 0).val < win0_2.index t (0 : Fin 2) * 8 + 8; rw [e0, ht]; omega
    | ⟨1, _⟩ => show win0_2.index t (1 : Fin 2) * 1 ≤ (i 1).val ∧ (i 1).val < win0_2.index t (1 : Fin 2) * 1 + 1; rw [e1]; omega

end Cert.KernelIdeal.PerRow

end
-- ==== Proof.KernelValue.lean ====
/-
  The kernel program's result. After the grid the 64 × 1 output array holds each batch row's least distance; the
  program then adds its 64 entries to zero. So the scalar result is the sum over the rows of the least distances.
-/
import proofs.«133429_j75711683493951_2_alg».proof.Proof.PerRow
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.PerRow MinDist

variable (m : (ℓ : Loc nD τ sig) → Buf (Elt Ideal) ℓ) (ρ : Dev nD → PrngReg)

/-- The sum of a 64 × 1 array's entries, from zero, as the program's last line computes it. -/
def sumRows (x : (⟨S64x1, .f32⟩ : BufTy).Contents (Elt Ideal)) : (⟨S_, .f32⟩ : BufTy).Contents (Elt Ideal) :=
  Host.reduceAdd (F := Ideal) x (constant (F := Ideal) S_ .f32 0x00000000#32) reducesTo_S64x1_S_d0_1 h_S_

/-- The lines after the grid leave, in the result buffer, the sum of the per-row array's entries. -/
theorem tail_eq (c : Dev nD) :
    Pipeline.afterTail₀ cfgs (dats m) 0 (V0 m) [hostOps1] c main_v1 = sumRows (perRow m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = perRow m c :=
    (Pipeline.withArrays_arr spec0 launch0.win.arr_inj c _ _ 2).trans (final m c)
  rw [e]
  rfl

/-- The sum of the per-row array's entries is the sum over the rows of the least distances, from zero. -/
theorem sumRows_perRow (c : Dev nD) (i : S_.Idx) :
    sumRows (perRow m c) i = total (V m c main_arg0) (V m c main_arg1) := by
  unfold sumRows
  simp only [Host.reduceAdd, Ideal.hostReduceAdd_def]
  rw [Ideal.hostReduceAdd_total reducesTo_S64x1_S_d0_1 (fun b => b.elim0) (perRow m c) _ i, sum_idx2]
  unfold total
  refine congrArg₂ (· + ·) rfl (Finset.sum_congr rfl fun n _ => ?_)
  rw [Fin.sum_univ_one]
  rfl

/-- The run, read: the result buffer ends at the sum over the rows of the least distances; the arguments are
    unchanged. -/
theorem run : θ_run defs (onTc (τ := τ) (main (F := Ideal))) ⟨m, fun _ => 0, ρ⟩ fun r => ∀ c : Dev nD,
      r.2.mem ((c.tc : Thread nD τ).loc main_v1)
        = (fun _ => total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 (by decide) (by decide))).trans
        ((tail_eq m c).trans (funext fun i => sumRows_perRow m c i)),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Whole

end
-- ==== Proof.RefValue.lean ====
/-
  The reference program's result, read one operation at a time. The input images are repeated along the sample axis,
  subtracted from the samples and squared; the squares are summed over channel, pixel row and pixel column into a
  64 × 16 array of distances, starting from zero; each row's minimum over its 16 entries is taken starting from +∞; the
  64 minima are added to zero. The indices of the five-axis array that drop to (row n, sample s) are exactly the
  (n, s, c, h, w), so the sum over them is the triple sum over channel and pixel.
-/
import proofs.«133429_j75711683493951_2_alg».proof.Proof.Gen.ReferenceIdeal.Read
import proofs.«133429_j75711683493951_2_alg».proof.Proof.MinDist
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read MinDist

variable (x0 : (⟨S64x3x128x128, .f32⟩ : BufTy).Contents (Elt Ideal)) (x1 : (⟨S64x16x3x128x128, .f32⟩ : BufTy).Contents (Elt Ideal))

/-- The squared pixel difference at (row, sample, channel, pixel): the input has no sample coordinate. -/
theorem squares_apply (n : Fin 64) (s : Fin 16) (c : Fin 3) (h w : Fin 128) :
    val_main_v3 (F := Ideal) x0 x1 (ix5 n s c h w)
      = (x1 (ix5 n s c h w) - x0 (ix4 n c h w)) * (x1 (ix5 n s c h w) - x0 (ix4 n c h w)) := by
  rw [val_main_v3_apply, val_main_v2_apply, val_main_v1_apply, val_main_v0_apply]
  have e : idx_main_v0 (idx_main_v1 (ix5 n s c h w)) = ix4 n c h w :=
    funext fun a => Fin.ext (by match a with | ⟨0, _⟩ => rfl | ⟨1, _⟩ => rfl | ⟨2, _⟩ => rfl | ⟨3, _⟩ => rfl)
  rw [e]
  rfl

/-- Dropping channel and pixel of (n, s, c, h, w) leaves (n, s). -/
theorem drop_ix5 (n : Fin 64) (s : Fin 16) (c : Fin 3) (h w : Fin 128) :
    reducesTo_S64x16x3x128x128_S64x16_d2_3_4.drop (ix5 n s c h w) = ix2 n s :=
  funext fun b => Fin.ext (by match b with | ⟨0, _⟩ => rfl | ⟨1, _⟩ => rfl)

/-- An index that drops to (n, s) is (n, s, its channel, its pixel). -/
theorem eq_ix5_of_drop (i : S64x16x3x128x128.Idx) (n : Fin 64) (s : Fin 16)
    (hi : reducesTo_S64x16x3x128x128_S64x16_d2_3_4.drop i = ix2 n s) :
    ix5 n s (⟨(i 2).val, (i 2).isLt⟩ : Fin 3) (⟨(i 3).val, (i 3).isLt⟩ : Fin 128) (⟨(i 4).val, (i 4).isLt⟩ : Fin 128) = i := by
  have h0 : (i 0).val = n.val := congrArg (fun j : S64x16.Idx => (j 0).val) hi
  have h1 : (i 1).val = s.val := congrArg (fun j : S64x16.Idx => (j 1).val) hi
  funext a
  apply Fin.ext
  match a with
  | ⟨0, _⟩ => exact h0.symm
  | ⟨1, _⟩ => exact h1.symm
  | ⟨2, _⟩ => rfl
  | ⟨3, _⟩ => rfl
  | ⟨4, _⟩ => rfl

/-- The sum over the indices that drop to (n, s) is the triple sum over channel and pixel. -/
theorem sum_drop (f : S64x16x3x128x128.Idx → EReal) (n : Fin 64) (s : Fin 16) :
    ∑ i ∈ Finset.univ.filter (fun i => reducesTo_S64x16x3x128x128_S64x16_d2_3_4.drop i = ix2 n s), f i
      = ∑ c : Fin 3, ∑ h : Fin 128, ∑ w : Fin 128, f (ix5 n s c h w) := by
  have e : ∑ c : Fin 3, ∑ h : Fin 128, ∑ w : Fin 128, f (ix5 n s c h w)
      = ∑ x : Fin 3 × Fin 128 × Fin 128, f (ix5 n s x.1 x.2.1 x.2.2) := by
    rw [Fintype.sum_prod_type]
    refine Finset.sum_congr rfl fun c _ => ?_
    rw [Fintype.sum_prod_type]
  rw [e]
  refine Finset.sum_nbij'
    (fun i => ((⟨(i 2).val, (i 2).isLt⟩ : Fin 3), (⟨(i 3).val, (i 3).isLt⟩ : Fin 128), (⟨(i 4).val, (i 4).isLt⟩ : Fin 128)))
    (fun x => ix5 n s x.1 x.2.1 x.2.2) ?_ ?_ ?_ ?_ ?_
  · intro i _; exact Finset.mem_univ _
  · intro x _; exact Finset.mem_filter.2 ⟨Finset.mem_univ _, drop_ix5 n s x.1 x.2.1 x.2.2⟩
  · intro i hi; exact eq_ix5_of_drop i n s (Finset.mem_filter.1 hi).2
  · intro x _; rfl
  · intro i hi; exact congrArg f (eq_ix5_of_drop i n s (Finset.mem_filter.1 hi).2).symm

/-- The distance array at (row n, sample s): zero plus the squared distance. -/
theorem dists_apply (n : Fin 64) (s : Fin 16) :
    val_main_v4 (F := Ideal) x0 x1 (ix2 n s) = Ideal.ofBits .f32 0x00000000#32 + MinDist.dist x0 x1 n s := by
  unfold val_main_v4
  simp only [Host.reduceAdd, Ideal.hostReduceAdd_def]
  show val_main_cst (F := Ideal) (Shape.Idx.first h_S_) + ∑ i ∈ Finset.univ.filter (fun i => reducesTo_S64x16x3x128x128_S64x16_d2_3_4.drop i = ix2 n s), val_main_v3 (F := Ideal) x0 x1 i = _
  rw [sum_drop]
  unfold MinDist.dist MinDist.chanDist
  refine congrArg₂ (· + ·) rfl (Finset.sum_congr rfl fun c _ => Finset.sum_congr rfl fun h _ => Finset.sum_congr rfl fun w _ => ?_)
  exact squares_apply x0 x1 n s c h w

/-- The row minima at row n: the least distance. -/
theorem minima_apply (n : Fin 64) : val_main_v5 (F := Ideal) x0 x1 (ix1 n) = best x0 x1 n := by
  unfold val_main_v5
  refine (Host.reduce_eq_fold_single (FloatOps.minimumf (F := Ideal) (φ := .f32)) (val_main_v4 (F := Ideal) x0 x1) (val_main_cst_0 (F := Ideal))
    reducesTo_S64x16_S64_d1 (by decide : S64x16.Reduces [1] S64) h_S_ (ix1 n)).trans ?_
  unfold best
  have ei : ∀ s : Fin 16, (by decide : S64x16.Reduces [1] S64).lift (ix1 n) s = ix2 n s := fun s =>
    funext fun d => Fin.ext (by match d with | ⟨0, _⟩ => rfl | ⟨1, _⟩ => rfl)
  have e : (val_main_v4 (F := Ideal) x0 x1 ∘ (by decide : S64x16.Reduces [1] S64).lift (ix1 n)) = fun s : Fin 16 => MinDist.dist x0 x1 n s :=
    funext fun (s : Fin 16) => by
      show val_main_v4 (F := Ideal) x0 x1 ((by decide : S64x16.Reduces [1] S64).lift (ix1 n) s) = _
      rw [ei s, dists_apply, Ideal.ofBits_zero_f32, zero_add]
  rw [e]
  rfl

/-- A sum over the one-axis index set of length 64 is the sum over its coordinate. -/
theorem sum_idx1 (f : S64.Idx → EReal) : ∑ j : S64.Idx, f j = ∑ n : Fin 64, f (ix1 n) := by
  refine Fintype.sum_equiv (⟨fun j => j 0, fun n => ix1 n, fun j => (eq_ix1 j).symm, fun n => rfl⟩ : S64.Idx ≃ Fin 64) _ _ fun j => ?_
  exact congrArg f (eq_ix1 j)

/-- The reference's result: the sum over the rows of the least distances, from zero. -/
theorem result_eq : val_main_v6 (F := Ideal) x0 x1 = fun _ => total x0 x1 := by
  funext i
  rw [val_main_v6_apply, sum_idx1]
  unfold total
  refine congrArg₂ (· + ·) rfl (Finset.sum_congr rfl fun n _ => minima_apply x0 x1 n)

end Cert.ReferenceIdeal.RefValue

end
-- ==== Proof.lean ====
/-
  The least squared distance from each of 64 input images to its 16 samples, summed over the 64.

  The kernel program walks a grid of 8 batch tiles × 2 sample tiles. At each point it holds the squared distances of
  an 8 × 8 tile of (row, sample) pairs — three channels, each summed along image rows and then over them, added to zero
  in turn —, takes the minimum along the sample axis from +∞ and folds it into a running-minimum buffer that is reset
  to +∞ when a batch tile is opened and copied to the tile's eight rows of a 64 × 1 array when it is closed; the 64
  entries of that array are then added to zero. The reference program forms all 64 × 16 squared distances in one sum
  over channel and pixel, from zero, takes each row's minimum over its 16 entries from +∞, and adds the 64 minima to
  zero.

  Over the extended reals the two are the same number. Addition there is commutative and associative with zero
  neutral, so a distance summed pixel row by pixel row and channel by channel is the distance summed at once; and a
  minimum is determined by the numbers below it, a number lying below a minimum of a family exactly when it lies below
  every member, so the minimum over sixteen samples taken in two halves of eight — each started from +∞ — is the
  minimum over all sixteen. Neither step asks anything of the entries, so the precondition is not used.

  The three frames: the two kernel programs' are the generated frame theorems; the reference has no kernel, and its
  frame is its run with the result forgotten. The idealization rewrote nothing, so there is nothing to preserve.
-/
import proofs.«133429_j75711683493951_2_alg».proof.Defs
import proofs.«133429_j75711683493951_2_alg».proof.Proof.Gen.Kernel
import proofs.«133429_j75711683493951_2_alg».proof.Proof.Gen.Kernel.Frame
import proofs.«133429_j75711683493951_2_alg».proof.Proof.Gen.KernelIdeal
import proofs.«133429_j75711683493951_2_alg».proof.Proof.Gen.KernelIdeal.Frame
import proofs.«133429_j75711683493951_2_alg».proof.Proof.Gen.ReferenceIdeal
import proofs.«133429_j75711683493951_2_alg».proof.Proof.Gen.Pre_finite_inputs
import proofs.«133429_j75711683493951_2_alg».proof.Proof.Gen.ReferenceIdeal.Run
import proofs.«133429_j75711683493951_2_alg».proof.Proof.Gen.ReferenceIdeal.Read
import proofs.«133429_j75711683493951_2_alg».proof.Proof.KernelValue
import proofs.«133429_j75711683493951_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the sum over the rows of the least distances of arguments that agree. -/
theorem algebraic : Cert.algebraic_KernelIdeal_ReferenceIdeal := by
  intro m ρ m' ρ' _ hagree
  refine ⟨fun c _ => MinDist.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
